-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096 : Shape := ⟨2, ![4, 4096]⟩
abbrev S1024x8192 : Shape := ⟨2, ![1024, 8192]⟩
abbrev S1024 : Shape := ⟨1, ![1024]⟩
abbrev S_ : Shape := ⟨0, ![]⟩

class Facts : Prop where
  bcast_S_S4x4096 : S_.BroadcastsInDim S4x4096 (![] : Fin 0 → Fin S4x4096.rank)
  reducesTo_S4x4096_S_d0_1 : S4x4096.ReducesTo [0, 1] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4x4096 .f32) (main_arg1 : FVec F S1024x8192 .f32) (main_arg2 : FVec F S1024 .f32) : IVec S_ 1 :=
  let main_v0 : FVec F S4x4096 .f32 := Host.absf main_arg0
  let main_cst : FVec F S_ .f32 := constant S_ .f32 0x7F800000#32
  let main_v1 : FVec F S4x4096 .f32 := broadcastInDim S4x4096 ![] bcast_S_S4x4096 main_cst
  let main_v2 : IVec S4x4096 1 := cmpf .olt main_v0 main_v1
  let main_c : IVec S_ 1 := constantI S_ 1 1#1
  let main_v3 : IVec S_ 1 := (fun x v => Host.reduce IntOp.andi x v reducesTo_S4x4096_S_d0_1 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S4x4096 : Shape := ⟨2, ![4, 4096]⟩
abbrev S1024x8192 : Shape := ⟨2, ![1024, 8192]⟩
abbrev S1024 : Shape := ⟨1, ![1024]⟩
abbrev S1x1024 : Shape := ⟨2, ![1, 1024]⟩
abbrev S4x4096x1024 : Shape := ⟨3, ![4, 4096, 1024]⟩
abbrev S1024x1024 : Shape := ⟨2, ![1024, 1024]⟩
abbrev S4x1024x1024 : Shape := ⟨3, ![4, 1024, 1024]⟩
abbrev S1x1024x1024 : Shape := ⟨3, ![1, 1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4x4096, .f32⟩
  | .hbm, ⟨1, _⟩ => ⟨S1024x8192, .f32⟩
  | .hbm, ⟨2, _⟩ => ⟨S1024, .f32⟩
  | .hbm, ⟨3, _⟩ => ⟨S1x1024, .f32⟩
  | .hbm, ⟨4, _⟩ => ⟨S4x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S4x1024x1024, .f32⟩
  | .local _ .vmem, ⟨4, _⟩ => ⟨S4x1024x1024, .f32⟩
  | _, _ => ⟨S4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  transposes_S1024x1024_p1_0_S1024x1024 : S1024x1024.Transposes [1, 0] S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S1024x1024_S1x1024x1024 : S1024x1024.ShapeCasts S1x1024x1024
  shapeCasts_S1x1024x1024_S1x1024x1024 : S1x1024x1024.ShapeCasts S1x1024x1024
  broadcasts_S1x1024x1024_S4x1024x1024 : S1x1024x1024.Broadcasts S4x1024x1024
  inb_S4x1024x1024_S4x1024x1024_0_0_0 : ∀ a, (![0, 0, 0] : Fin 3 → Nat) a + S4x1024x1024.size a ≤ S4x1024x1024.size a
  h_S4x1024x1024 : 0 < S4x1024x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x8192.size a
  hwx0_0 : ∀ i : grid0.Coords, EltTy.bits .f32 = 32 ∨ (Rect.block (s := S1024x8192) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1024x1024.size a ≤ S4x4096x1024.size a
  hwx0_2 : ∀ i : grid0.Coords, EltTy.bits .f32 = 32 ∨ (Rect.block (s := S4x4096x1024) S4x1024x1024.size (cc0_transform_2 i) (hinb0_2 i)).WholeWords (EltTy.packing .f32)

variable [Facts₀]

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096 : Shape := ⟨2, ![4, 4096]⟩
abbrev S1024x8192 : Shape := ⟨2, ![1024, 8192]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1x4096x1024 : Shape := ⟨3, ![1, 4096, 1024]⟩
abbrev S4x4096x1024 : Shape := ⟨3, ![4, 4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4x4096, .f32⟩
  | .hbm, ⟨1, _⟩ => ⟨S1024x8192, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S1x4096x1024, .f32⟩
  | .hbm, ⟨9, _⟩ => ⟨S4x4096x1024, .f32⟩
  | _, _ => ⟨S4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  slices_S1024x8192_S1024x4096_0_0 : S1024x8192.Slices ![0, 0] S1024x4096
  transposes_S1024x4096_S4096x1024_1_0 : S1024x4096.Transposes [1, 0] S4096x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S4096x1024_S1x4096x1024_1_2 : S4096x1024.BroadcastsInDim S1x4096x1024 (![1, 2] : Fin 2 → Fin S1x4096x1024.rank)
  bcast_S1x4096x1024_S4x4096x1024_0_1_2 : S1x4096x1024.BroadcastsInDim S4x4096x1024 (![0, 1, 2] : Fin 3 → Fin S4x4096x1024.rank)

variable [Facts₀]

class Facts : Prop extends Facts₀ where

variable [Facts]
-- ==== Proof.PosEmbedSpec.lean ====
/-
  The positional embedding as one function of the weight matrix and the bias.

  For a weight `W` of 1024 rows (model dimension) and 8192 columns (positions) and a bias `b` of 1024 entries,
  the result has one entry for each batch row `n < 4`, position `s < 4096` and model coordinate `d < 1024`:

      out (n, s, d) = W (d, s) + b (d).

  The batch coordinate `n` is not used: the four batch rows are copies of one another. Only the first 4096
  columns of `W` are read. The sum is a single addition of two entries, so the statement is the same at every
  float instance; no law of arithmetic is needed to compare two programs that both compute it.
-/
import Idealize.ShloMosaic.Lib.ValueIdx

noncomputable section

namespace Cert.PosEmbed

open Idealize.ShloMosaic

/-- The weight matrix: 1024 model coordinates by 8192 positions. -/
abbrev SW : Shape := ⟨2, ![1024, 8192]⟩
/-- The bias: one entry per model coordinate. -/
abbrev SB : Shape := ⟨1, ![1024]⟩
/-- The result: 4 batch rows by 4096 positions by 1024 model coordinates. -/
abbrev SO : Shape := ⟨3, ![4, 4096, 1024]⟩

/-- The entry of the weight matrix that result entry `(n, s, d)` reads: row `d`, column `s` (a transposition;
    `s < 4096` is a column of the 8192). -/
abbrev weightAt (i : SO.Idx) : SW.Idx := fun a => match a with
  | ⟨0, _⟩ => ⟨(i 2).val, (i 2).isLt⟩
  | ⟨1, _⟩ => ⟨(i 1).val, by have h : (i 1).val < 4096 := (i 1).isLt; show (i 1).val < 8192; omega⟩

/-- The entry of the bias that result entry `(n, s, d)` reads: `d`. -/
abbrev biasAt (i : SO.Idx) : SB.Idx := fun a => match a with
  | ⟨0, _⟩ => ⟨(i 2).val, (i 2).isLt⟩

variable {F : FTy → Type} [FloatOps F]

/-- `out (n, s, d) = W (d, s) + b (d)`. -/
def posEmbed (W : SW.Idx → Elt F .f32) (b : SB.Idx → Elt F .f32) : SO.Idx → Elt F .f32 :=
  fun i => FloatOps.addf (W (weightAt i)) (b (biasAt i))

theorem posEmbed_apply (W : SW.Idx → Elt F .f32) (b : SB.Idx → Elt F .f32) (i : SO.Idx) :
    posEmbed W b i = FloatOps.addf (W (weightAt i)) (b (biasAt i)) := rfl

end Cert.PosEmbed

end
-- ==== Proof.ReferenceValue.lean ====
/-
  The reference computes the positional embedding.

  The reference takes the first 4096 columns of `W`, transposes them (entry `(s, d)` of the transpose is entry
  `(d, s)` of `W`), adds the bias along the model coordinate (the bias is first made a one-row matrix, then
  repeated down the 4096 rows, so entry `(s, d)` of the repeated bias is `b (d)`), and repeats the sum over the
  four batch rows (first as a leading axis of extent one, then four times). Read at `(n, s, d)` this is
  `W (d, s) + b (d)`: each layout step only renames the index, and the composed renaming is the one the
  specification uses.
-/
import proofs.«139876_j4483945857469_2_alg».proof.Proof.Gen.ReferenceIdeal.Read
import proofs.«139876_j4483945857469_2_alg».proof.Proof.PosEmbedSpec

noncomputable section

namespace Cert.PosEmbed.Reference

open Idealize.ShloMosaic Cert.ReferenceIdeal Cert.ReferenceIdeal.Read Cert.PosEmbed

variable {F : FTy → Type} [FloatOps F]

/-- Through the two repetitions over the batch, the transposition and the column slice, result index `(n, s, d)`
    reads the weight at `(d, s)`. -/
theorem weight_index (i : S4x4096x1024.Idx) :
    idx_main_v0 (idx_main_v1 (idx_main_v5 (idx_main_v6 i))) = weightAt i :=
  funext fun a => Fin.ext (by match a with | ⟨0, _⟩ => rfl | ⟨1, _⟩ => rfl)

/-- Through the two repetitions over the batch and the two repetitions of the bias, result index `(n, s, d)`
    reads the bias at `d`. -/
theorem bias_index (i : S4x4096x1024.Idx) :
    idx_main_v2 (idx_main_v3 (idx_main_v5 (idx_main_v6 i))) = biasAt i :=
  funext fun a => Fin.ext (by match a with | ⟨0, _⟩ => rfl)

/-- The reference's result, as a function of the weight and the bias, is the positional embedding. -/
theorem result_eq (W : (⟨S1024x8192, .f32⟩ : BufTy).Contents (Elt F)) (b : (⟨S1024, .f32⟩ : BufTy).Contents (Elt F)) :
    val_main_v6 (F := F) W b = posEmbed (F := F) W b := by
  funext i
  rw [val_main_v6_apply, val_main_v5_apply, val_main_v4_apply, val_main_v1_apply, val_main_v0_apply,
    val_main_v3_apply, val_main_v2_apply, weight_index, bias_index]
  rfl

end Cert.PosEmbed.Reference

end
-- ==== Proof.KernelValue.lean ====
/-
  The kernel computes the positional embedding.

  The kernel walks the 4096 positions in four tiles of 1024. At tile `t` it reads the 1024 × 1024 block of `W`
  made of all rows and columns `1024 t … 1024 t + 1023`, and the bias as a one-row matrix (the bias reshaped from
  1024 entries to 1 × 1024: entry `(0, d)` of the row is `b (d)`). It transposes the block, adds the bias row to
  every row of the transpose, and writes the sum four times, once per batch row, to the block of the result made
  of all batch rows, positions `1024 t … 1024 t + 1023` and all model coordinates. So entry `(n, r, d)` of the
  block written at tile `t` is `W (d, 1024 t + r) + b (d)`, which is entry `(n, 1024 t + r, d)` of the
  positional embedding. The four blocks tile the result: position `s` lies in tile `s / 1024`. Hence the
  result array ends holding the positional embedding everywhere.
-/
import proofs.«139876_j4483945857469_2_alg».proof.Proof.Gen.KernelIdeal.Value
import proofs.«139876_j4483945857469_2_alg».proof.Proof.PosEmbedSpec
import Idealize.ShloMosaic.Lib.Pipeline.Value
import Idealize.ShloMosaic.Lib.StableHlo.Run

noncomputable section

namespace Cert.PosEmbed.Kernel

open Cert.KernelIdeal Cert.KernelIdeal.Gen Cert.KernelIdeal.Value Idealize.ShloMosaic Idealize.ShloMosaic.TcCoe Idealize.SL.Sem Cert.PosEmbed
open Idealize.ShloMosaic.Pipeline (Dat)

variable {F : FTy → Type} [FloatOps F]
variable (m : (ℓ : Loc nD τ sig) → Buf (Elt F) ℓ) (ρ : Dev nD → PrngReg)

/-! ## The bias as the one-row matrix the kernel reads -/

/-- When the tiles start, the one-row matrix holds the bias reshaped from 1024 entries to 1 × 1024. -/
theorem bias_row (c : Dev nD) :
    (V m c main_v0 : S1x1024.Idx → Elt F .f32)
      = shapeCast S1x1024 (m ((c : Thread nD τ).loc main_arg2)) shapeCasts_S1024_S1x1024 := by
  dsimp only [Gen.V, Gen.hostOps0]
  after_results
  rfl

/-- Entry `(0, d)` of the one-row matrix is `b (d)`: the two have the same position in row-major order. -/
theorem bias_row_apply (c : Dev nD) (y : S1x1024.Idx) (k : S1024.Idx) (hk : (k 0).val = (y 1).val) :
    V m c main_v0 y = m ((c : Thread nD τ).loc main_arg2) k := by
  have hy0 : (y 0).val < 1 := (y 0).isLt
  rw [show (V m c main_v0 : S1x1024.Idx → Elt F .f32) = _ from bias_row m c]
  refine shapeCast_apply _ _ y k ?_
  rw [Shape.rowMajor_val_one, Shape.rowMajor_val_two]
  show (k 0).val = (y 0).val * 1024 + (y 1).val
  omega

/-! ## What one tile writes -/

theorem zero_offsets : (![0, 0] : Fin 2 → Nat) = fun _ => 0 := funext fun a => by fin_cases a <;> rfl

/-- The block the body leaves, for any two input blocks: entry `(n, r, d)` is entry `(d, r)` of the first block
    plus entry `(0, d)` of the second. -/
theorem block_value (X0 : Vec F S1024x1024 .f32) (X1 : Vec F S1x1024 .f32) (y : S4x1024x1024.Idx) :
    out0_2 X0 X1 y = FloatOps.addf (X0 (ix2_0 y)) (X1 (ix2_1 y)) := by
  unfold out0_2
  refine (canon2_eq _ _ y).trans ?_
  show FloatOps.addf (View.ld X0 r0_0 (ix2_0 y)) (View.ld X1 r0_1 (ix2_1 y)) = _
  rw [View.ld_unit_zero (S := S1024x1024) zero_offsets, View.ld_unit_zero (S := S1x1024) zero_offsets]

/-- The block indices of the three windows at tile `t`: the weight's block is at row-block 0 and at the column-block
    of the result's position-block; the bias row's block is the whole row; the result's block is at batch-block 0,
    position-block `t`, model-block 0. -/
theorem tile_indices : ∀ t : Fin cfg0.N,
    win0_0.index t (0 : Fin 2) = 0 ∧ win0_0.index t (1 : Fin 2) = win0_2.index t (1 : Fin 3)
    ∧ win0_1.index t (0 : Fin 2) = 0 ∧ win0_1.index t (1 : Fin 2) = 0
    ∧ win0_2.index t (0 : Fin 3) = 0 ∧ win0_2.index t (2 : Fin 3) = 0 ∧ win0_2.index t (1 : Fin 3) = t.val :=
  (by decide +kernel : ∀ t : Fin grid0.N, _)

/-- What tile `t` writes back is block `t` of the positional embedding of the weight and the bias. -/
theorem flushed_eq (c : Dev nD) (t : Fin cfg0.N) :
    (dats m 0 c).flushed 2 t = ((cfg0.win 2).blk t).view.read (Elt F)
      (posEmbed (F := F) (V m c main_arg1) (m ((c : Thread nD τ).loc main_arg2))) := by
  rw [Value.flushed2]
  obtain ⟨e00, e01, e10, e11, e20, e22, e21⟩ := tile_indices t
  funext y
  show out0_2 (iblk m c 0 t) (iblk m c 1 t) y = _
  refine (block_value (F := F) (iblk m c 0 t) (iblk m c 1 t) y).trans ?_
  show FloatOps.addf (V m c main_arg1 (((cfg0.win 0).blk t).view.emb (ix2_0 y)))
        (V m c main_v0 (((cfg0.win 1).blk t).view.emb (ix2_1 y)))
      = FloatOps.addf (V m c main_arg1 (weightAt (((cfg0.win 2).blk t).view.emb y)))
        (m ((c : Thread nD τ).loc main_arg2) (biasAt (((cfg0.win 2).blk t).view.emb y)))
  have hW : ((cfg0.win 0).blk t).view.emb (ix2_0 y) = weightAt (((cfg0.win 2).blk t).view.emb y) := by
    funext a; apply Fin.ext
    match a with
    | ⟨0, _⟩ =>
      show win0_0.index t (0 : Fin 2) * 1024 + 1 * (y 2).val = win0_2.index t (2 : Fin 3) * 1024 + 1 * (y 2).val
      omega
    | ⟨1, _⟩ =>
      show win0_0.index t (1 : Fin 2) * 1024 + 1 * (y 1).val = win0_2.index t (1 : Fin 3) * 1024 + 1 * (y 1).val
      omega
  have hB : V m c main_v0 (((cfg0.win 1).blk t).view.emb (ix2_1 y))
      = m ((c : Thread nD τ).loc main_arg2) (biasAt (((cfg0.win 2).blk t).view.emb y)) := by
    refine bias_row_apply m c _ _ ?_
    show win0_2.index t (2 : Fin 3) * 1024 + 1 * (y 2).val = win0_1.index t (1 : Fin 2) * 1024 + 1 * (y 2).val
    omega
  rw [hW, hB]

/-! ## The four blocks tile the result -/

/-- An index of the result is in tile `t`'s block iff each coordinate is in the block's range on its axis. -/
theorem mem_block (t : Fin cfg0.N) (i : S4x4096x1024.Idx) :
    i ∈ ((cfg0.win 2).blk t).view.set ↔ ∀ a : Fin 3, win0_2.index t a * S4x1024x1024.size a ≤ (i a).val
      ∧ (i a).val < win0_2.index t a * S4x1024x1024.size a + S4x1024x1024.size a := by
  show i ∈ ((View.whole main_v1).slice (win0_2.rect t)).set ↔ _
  rw [View.set_slice_whole, Rect.mem_set_unit]
  exact Iff.rfl

/-- Every index `(n, s, d)` of the result lies in the block of tile `s / 1024`. -/
theorem covered (i : S4x4096x1024.Idx) :
    ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 1024 := (i 2).isLt
  let t : Fin cfg0.N := ⟨(i 1).val / 1024, by show (i 1).val / 1024 < grid0.N; rw [N_0]; omega⟩
  obtain ⟨e00, e01, e10, e11, e20, e22, e21⟩ := tile_indices t
  have ht : t.val = (i 1).val / 1024 := rfl
  refine ⟨t, flush0_2 t, ?_⟩
  rw [mem_block]
  intro a
  match a with
  | ⟨0, _⟩ =>
    show win0_2.index t (0 : Fin 3) * 4 ≤ (i 0).val ∧ (i 0).val < win0_2.index t (0 : Fin 3) * 4 + 4
    omega
  | ⟨1, _⟩ =>
    show win0_2.index t (1 : Fin 3) * 1024 ≤ (i 1).val ∧ (i 1).val < win0_2.index t (1 : Fin 3) * 1024 + 1024
    omega
  | ⟨2, _⟩ =>
    show win0_2.index t (2 : Fin 3) * 1024 ≤ (i 2).val ∧ (i 2).val < win0_2.index t (2 : Fin 3) * 1024 + 1024
    omega

/-! ## The result array, and the run -/

/-- After the four tiles the result array is the positional embedding of the weight and the bias. -/
theorem final (c : Dev nD) :
    (dats m 0 c).arrAt 2 cfg0.N
      = posEmbed (F := F) (m ((c : Thread nD τ).loc main_arg1)) (m ((c : Thread nD τ).loc main_arg2)) := by
  rw [← V_main_arg1 m c]
  exact (dats m 0 c).arrAt_eq_of_cover 2 _ (fun t _ => flushed_eq m c t) covered

/-- Every weakly fair execution of the kernel terminates with the result array at the positional embedding of its
    weight and bias arguments, and the arguments unchanged. -/
theorem run : θ_run defs (onTc (τ := τ) (main (F := F))) ⟨m, fun _ => 0, ρ⟩ fun r => ∀ c : Dev nD,
      r.2.mem ((c : Thread nD τ).loc main_v1)
        = posEmbed (F := F) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.PosEmbed.Kernel

end
-- ==== Proof.lean ====
/-
  A positional embedding: for a weight `W` (1024 model coordinates × 8192 positions) and a bias `b` (1024), the
  result at batch row `n < 4`, position `s < 4096` and model coordinate `d < 1024` is

      out (n, s, d) = W (d, s) + b (d).

  The kernel produces it tile by tile — four tiles of 1024 positions, each the transposed block of `W` plus the
  bias row, written once per batch row (Proof/KernelValue.lean). The reference produces it whole — the first 4096
  columns of `W` transposed, plus the bias repeated down the rows, repeated over the batch
  (Proof/ReferenceValue.lean). Both are the one function `posEmbed` of `W` and `b` (Proof/PosEmbedSpec.lean),
  with the same two entries added in the same order, so the results agree as extended reals entry by entry, and
  no property of the inputs is used: the two programs agree on infinite entries as well.

  The three frames: the kernel's two are the generated frame runs; the reference has no kernel, and its frame is its
  generated run with the result forgotten. The idealization rewrote nothing, so there is nothing to preserve.
-/
import proofs.«139876_j4483945857469_2_alg».proof.Defs
import proofs.«139876_j4483945857469_2_alg».proof.Proof.Gen.Kernel
import proofs.«139876_j4483945857469_2_alg».proof.Proof.Gen.Kernel.Skeleton
import proofs.«139876_j4483945857469_2_alg».proof.Proof.Gen.Kernel.Launch
import proofs.«139876_j4483945857469_2_alg».proof.Proof.Gen.Kernel.Points
import proofs.«139876_j4483945857469_2_alg».proof.Proof.Gen.Kernel.Frame
import proofs.«139876_j4483945857469_2_alg».proof.Proof.Gen.KernelIdeal
import proofs.«139876_j4483945857469_2_alg».proof.Proof.Gen.KernelIdeal.Skeleton
import proofs.«139876_j4483945857469_2_alg».proof.Proof.Gen.KernelIdeal.Launch
import proofs.«139876_j4483945857469_2_alg».proof.Proof.Gen.KernelIdeal.Points
import proofs.«139876_j4483945857469_2_alg».proof.Proof.Gen.KernelIdeal.Frame
import proofs.«139876_j4483945857469_2_alg».proof.Proof.Gen.KernelIdeal.Value
import proofs.«139876_j4483945857469_2_alg».proof.Proof.Gen.ReferenceIdeal
import proofs.«139876_j4483945857469_2_alg».proof.Proof.Gen.ReferenceIdeal.Run
import proofs.«139876_j4483945857469_2_alg».proof.Proof.Gen.ReferenceIdeal.Read
import proofs.«139876_j4483945857469_2_alg».proof.Proof.Gen.Pre_finite_inputs
import proofs.«139876_j4483945857469_2_alg».proof.Proof.PosEmbedSpec
import proofs.«139876_j4483945857469_2_alg».proof.Proof.ReferenceValue
import proofs.«139876_j4483945857469_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's run ends with each result at its term and the arguments unchanged; forget the result. -/
theorem frame_reference : Cert.frame_ReferenceIdeal := fun m ρ _ =>
  (θ_run Cert.ReferenceIdeal.defs _ _).mono (fun _ h c => (h c).2) (Cert.ReferenceIdeal.Value.run (F := Ideal) m ρ)

/-- The kernel over the extended reals is the kernel's own text: no operation was rewritten. -/
theorem preserves : Cert.preserves_Kernel_KernelIdeal := trivial

/-- From memories that agree on the arguments, the kernel ends with its result at `posEmbed W b` and the reference
    with its result at its composed term, which is `posEmbed W' b'`; the weights and the biases agree. -/
theorem algebraic : Cert.algebraic_KernelIdeal_ReferenceIdeal := by
  intro m ρ m' ρ' _ hagree
  refine ⟨_, Cert.PosEmbed.Kernel.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.PosEmbed.Reference.result_eq, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
